-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S800000 : Shape := ⟨1, ![800000]⟩
abbrev S256x300 : Shape := ⟨2, ![256, 300]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x300 : S_.BroadcastsInDim S256x300 (![] : Fin 0 → Fin S256x300.rank)
  reducesTo_S256x300_S_d0_1 : S256x300.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x256 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x300 .f32) (main_arg1 : IVec S800000 32) (main_arg2 : IVec S800000 32) (main_arg3 : FVec F S800000 .f32) (main_arg4 : FVec F S256x300 .f32) (main_arg5 : FVec F S256 .f32) (main_arg6 : FVec F S128x256 .f32) (main_arg7 : FVec F S128 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x300 .f32 := Host.absf main_arg4
  let main_cst_2 : FVec F S_ .f32 := constant S_ .f32 0x7F800000#32
  let main_v10 : FVec F S256x300 .f32 := broadcastInDim S256x300 ![] bcast_S_S256x300 main_cst_2
  let main_v11 : IVec S256x300 1 := cmpf .olt main_v9 main_v10
  let main_c_3 : IVec S_ 1 := constantI S_ 1 1#1
  let main_v12 : IVec S_ 1 := (fun x v => Host.reduce IntOp.andi x v reducesTo_S256x300_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x300 : Shape := ⟨2, ![50000, 300]⟩
abbrev S800000 : Shape := ⟨1, ![800000]⟩
abbrev S256x300 : Shape := ⟨2, ![256, 300]⟩
abbrev S256 : Shape := ⟨1, ![256]⟩
abbrev S128x256 : Shape := ⟨2, ![128, 256]⟩
abbrev S128 : Shape := ⟨1, ![128]⟩
abbrev S300x256 : Shape := ⟨2, ![300, 256]⟩
abbrev S256x128 : Shape := ⟨2, ![256, 128]⟩
abbrev S50000x256 : Shape := ⟨2, ![50000, 256]⟩
abbrev S2000x300 : Shape := ⟨2, ![2000, 300]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S5000x256 : Shape := ⟨2, ![5000, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 48
  | .vmem => 20
  | .smem => 0
  | _ => 0

abbrev bufTy : (tb : Table) → Fin (tcTables nBuf tb) → BufTy
  | .hbm, ⟨0, _⟩ => ⟨S50000x300, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x300, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S300x256, .f32⟩
  | .hbm, ⟨9, _⟩ => ⟨S256x128, .f32⟩
  | .hbm, ⟨10, _⟩ => ⟨S50000x256, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x128, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S50000x128, .f32⟩
  | .local _ .vmem, ⟨0, _⟩ => ⟨S2000x300, .f32⟩
  | .local _ .vmem, ⟨1, _⟩ => ⟨S2000x300, .f32⟩
  | .local _ .vmem, ⟨2, _⟩ => ⟨S300x256, .f32⟩
  | .local _ .vmem, ⟨3, _⟩ => ⟨S2000x256, .f32⟩
  | .local _ .vmem, ⟨4, _⟩ => ⟨S2000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S256x300_S300x256_1_0 : S256x300.Transposes [1, 0] S300x256
  transposes_S128x256_S256x128_1_0 : S128x256.Transposes [1, 0] S256x128
  inb_S2000x300_S2000x300_0_0 : ∀ a, (![0, 0] : Fin 2 → Nat) a + S2000x300.size a ≤ S2000x300.size a
  h_S2000x300 : 0 < S2000x300.numel
  bitsLt_bf16_f32 : FTy.bits .bf16 < FTy.bits .f32
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S2000x256_S2000x256_0_0 : ∀ a, (![0, 0] : Fin 2 → Nat) a + S2000x256.size a ≤ S2000x256.size a
  h_S2000x256 : 0 < S2000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S2000x300_S300x256_S2000x256_1_0_0_1_n_n_wf : DotDims.WF S2000x300 S300x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S50000x300.size a
  hwx0_0 : ∀ i : grid0.Coords, EltTy.bits .f32 = 32 ∨ (Rect.block (s := S50000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x256.size a ≤ S300x256.size a
  hwx0_1 : ∀ i : grid0.Coords, EltTy.bits .f32 = 32 ∨ (Rect.block (s := S300x256) S300x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S2000x300_S300x256_S2000x256_1_0_0_1_n_n : DotDims S2000x300 S300x256 S2000x256 where
  lhsContracting := [1]
  rhsContracting := [0]
  lhsNonContracting := [0]
  rhsNonContracting := [1]
  lhsBatch := []
  rhsBatch := []
  wf := dot_S2000x300_S300x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S300x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x300 : Shape := ⟨2, ![50000, 300]⟩
abbrev S800000 : Shape := ⟨1, ![800000]⟩
abbrev S256x300 : Shape := ⟨2, ![256, 300]⟩
abbrev S256 : Shape := ⟨1, ![256]⟩
abbrev S128x256 : Shape := ⟨2, ![128, 256]⟩
abbrev S128 : Shape := ⟨1, ![128]⟩
abbrev S300x256 : Shape := ⟨2, ![300, 256]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S256x128 : Shape := ⟨2, ![256, 128]⟩
abbrev S50000x128 : Shape := ⟨2, ![50000, 128]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 63
  | .vmem => 0
  | .smem => 0
  | _ => 0

abbrev bufTy : (tb : Table) → Fin (tcTables nBuf tb) → BufTy
  | .hbm, ⟨0, _⟩ => ⟨S50000x300, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x300, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S300x256, .f32⟩
  | .hbm, ⟨9, _⟩ => ⟨S50000x256, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S800000x256, .f32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S1x256, .f32⟩
  | .hbm, ⟨27, _⟩ => ⟨S50000x256, .f32⟩
  | .hbm, ⟨28, _⟩ => ⟨S50000x256, .f32⟩
  | .hbm, ⟨29, _⟩ => ⟨S_, .f32⟩
  | .hbm, ⟨30, _⟩ => ⟨S50000x256, .f32⟩
  | .hbm, ⟨31, _⟩ => ⟨S50000x256, .f32⟩
  | .hbm, ⟨32, _⟩ => ⟨S256x128, .f32⟩
  | .hbm, ⟨33, _⟩ => ⟨S50000x128, .f32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000, .f32⟩
  | .hbm, ⟨56, _⟩ => ⟨S50000x1, .f32⟩
  | .hbm, ⟨57, _⟩ => ⟨S50000x1, .f32⟩
  | .hbm, ⟨58, _⟩ => ⟨S_, .f32⟩
  | .hbm, ⟨59, _⟩ => ⟨S50000x1, .f32⟩
  | .hbm, ⟨60, _⟩ => ⟨S50000x1, .f32⟩
  | .hbm, ⟨61, _⟩ => ⟨S50000x128, .f32⟩
  | .hbm, ⟨62, _⟩ => ⟨S50000x128, .f32⟩
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_v0 : Ref sig .tc := ⟨.hbm, 53, rfl⟩
abbrev main_call1_cst : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  transposes_S256x300_S300x256_1_0 : S256x300.Transposes [1, 0] S300x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S128x256_S256x128_1_0 : S128x256.Transposes [1, 0] S256x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x300_S300x256_S50000x256_1_0_0_1_n_n_wf : DotDims.WF S50000x300 S300x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x300_S300x256_S50000x256_1_0_0_1_n_n : DotDims S50000x300 S300x256 S50000x256 where
  lhsContracting := [1]
  rhsContracting := [0]
  lhsNonContracting := [0]
  rhsNonContracting := [1]
  lhsBatch := []
  rhsBatch := []
  wf := dot_S50000x300_S300x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result array named.

  The program is four row-tiled regions among three stretches of host operations. Its buffers at the end of the
  run are the last stage of a fold through the seven segments: each host stretch applies its operations, each
  region replaces its output array by what its grid points wrote back and leaves every other buffer alone. The
  run below states that every weakly fair execution terminates with the result array at that last stage and with
  the eight argument arrays as launched; what the last stage holds at the result array is computed in the value
  modules.
-/
import proofs.«175998_j7516192768198_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    stage of the fold and the arguments unchanged. -/
theorem run : θ_run defs (onTc (τ := τ) (main (F := F))) ⟨m, fun _ => 0, ρ⟩ (fun r => ∀ c : Dev nD,
      r.2.mem ((c.tc : Thread nD τ).loc main_v33) = W7 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v33 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Whole

end
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.Boundaries.lean ====
/-
  The program's buffers at the boundaries of its seven segments, read at the buffers the result depends on.

  The buffers after a stretch of host operations are the stretch's operations applied to the buffers before it; the
  buffers after a region are the buffers before it with the region's output array replaced. Read back through this
  fold: an argument array is never written, so at every boundary it holds what it held at the launch; the two
  transposed weight matrices are written once, before the first region; each stretch between regions computes, from
  the product array h the region before it left, the sparse aggregation
      out (r, ·) = Σ over the edges e with row e = r of val e · h (col e, ·)
  (a gather of the rows col e, with a negative index counted from the end, a product with val spread along the rows,
  and a scatter-add into zeros at the rows row e) and the bias vector as a one-row array.
-/
import proofs.«175998_j7516192768198_1_alg».proof.Proof.Gen.KernelIdeal.Frame
import proofs.«175998_j7516192768198_1_alg».proof.Proof.LibKeep
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-- The sparse aggregation of the rows of a [50000, 256] array along the edges. -/
def aggregate256 (h : (⟨S50000x256, .f32⟩ : BufTy).Contents (Elt Ideal)) (row col : (⟨S800000, .i32⟩ : BufTy).Contents (Elt Ideal)) (val : (⟨S800000, .f32⟩ : BufTy).Contents (Elt Ideal)) :
    (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 row)
    (mulf (broadcastInDim S800000x256 ![0, 1] bcast_S800000x1_S800000x256_0_1 (broadcastInDim S800000x1 ![0] bcast_S800000_S800000x1_0 val))
      (Host.gather gather_S50000x256_S800000x1_S800000x256_1_0_n_n_0_1_1256 h
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The sparse aggregation of the rows of a [50000, 128] array along the edges. -/
def aggregate128 (h : (⟨S50000x128, .f32⟩ : BufTy).Contents (Elt Ideal)) (row col : (⟨S800000, .i32⟩ : BufTy).Contents (Elt Ideal)) (val : (⟨S800000, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 val))
      (Host.gather gather_S50000x128_S800000x1_S800000x128_1_0_n_n_0_1_1128 h
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

variable (m : (ℓ : Loc nD τ sig) → Buf (Elt Ideal) ℓ) (ρ : Dev nD → PrngReg)

/-! ## Before region 0 -/

theorem at1_main_arg0 (c : Dev nD) : W1 m ρ c (Proc.devRef .tc main_arg0) = m ((c : Thread nD τ).loc main_arg0) :=
  (show W1 m ρ c (Proc.devRef .tc main_arg0) = W0 m ρ c (Proc.devRef .tc main_arg0) by keeps hostOps0).trans rfl
theorem at1_main_arg1 (c : Dev nD) : W1 m ρ c (Proc.devRef .tc main_arg1) = m ((c : Thread nD τ).loc main_arg1) :=
  (show W1 m ρ c (Proc.devRef .tc main_arg1) = W0 m ρ c (Proc.devRef .tc main_arg1) by keeps hostOps0).trans rfl
theorem at1_main_arg2 (c : Dev nD) : W1 m ρ c (Proc.devRef .tc main_arg2) = m ((c : Thread nD τ).loc main_arg2) :=
  (show W1 m ρ c (Proc.devRef .tc main_arg2) = W0 m ρ c (Proc.devRef .tc main_arg2) by keeps hostOps0).trans rfl
theorem at1_main_arg3 (c : Dev nD) : W1 m ρ c (Proc.devRef .tc main_arg3) = m ((c : Thread nD τ).loc main_arg3) :=
  (show W1 m ρ c (Proc.devRef .tc main_arg3) = W0 m ρ c (Proc.devRef .tc main_arg3) by keeps hostOps0).trans rfl
theorem at1_main_arg5 (c : Dev nD) : W1 m ρ c (Proc.devRef .tc main_arg5) = m ((c : Thread nD τ).loc main_arg5) :=
  (show W1 m ρ c (Proc.devRef .tc main_arg5) = W0 m ρ c (Proc.devRef .tc main_arg5) by keeps hostOps0).trans rfl
theorem at1_main_arg7 (c : Dev nD) : W1 m ρ c (Proc.devRef .tc main_arg7) = m ((c : Thread nD τ).loc main_arg7) :=
  (show W1 m ρ c (Proc.devRef .tc main_arg7) = W0 m ρ c (Proc.devRef .tc main_arg7) by keeps hostOps0).trans rfl

/-- The first weight matrix transposed. -/
theorem at1_main_v0 (c : Dev nD) :
    W1 m ρ c (Proc.devRef .tc main_v0) = transpose S300x256 [1, 0] (m ((c : Thread nD τ).loc main_arg4)) transposes_S256x300_S300x256_1_0 := by
  show StableHlo.after hostOps0 (W0 m ρ c) (Proc.devRef .tc main_v0) = _
  after_results
  all_goals rfl

/-- The second weight matrix transposed. -/
theorem at1_main_v1 (c : Dev nD) :
    W1 m ρ c (Proc.devRef .tc main_v1) = transpose S256x128 [1, 0] (m ((c : Thread nD τ).loc main_arg6)) transposes_S128x256_S256x128_1_0 := by
  show StableHlo.after hostOps0 (W0 m ρ c) (Proc.devRef .tc main_v1) = _
  after_results
  all_goals rfl

/-! ## After region 0 (it writes main_v2 only) -/

theorem at2_main_arg1 (c : Dev nD) : W2 m ρ c (Proc.devRef .tc main_arg1) = m ((c : Thread nD τ).loc main_arg1) :=
  (W2_of_ne m ρ c main_arg1 (by decide)).trans (at1_main_arg1 m ρ c)
theorem at2_main_arg2 (c : Dev nD) : W2 m ρ c (Proc.devRef .tc main_arg2) = m ((c : Thread nD τ).loc main_arg2) :=
  (W2_of_ne m ρ c main_arg2 (by decide)).trans (at1_main_arg2 m ρ c)
theorem at2_main_arg3 (c : Dev nD) : W2 m ρ c (Proc.devRef .tc main_arg3) = m ((c : Thread nD τ).loc main_arg3) :=
  (W2_of_ne m ρ c main_arg3 (by decide)).trans (at1_main_arg3 m ρ c)
theorem at2_main_arg5 (c : Dev nD) : W2 m ρ c (Proc.devRef .tc main_arg5) = m ((c : Thread nD τ).loc main_arg5) :=
  (W2_of_ne m ρ c main_arg5 (by decide)).trans (at1_main_arg5 m ρ c)
theorem at2_main_arg7 (c : Dev nD) : W2 m ρ c (Proc.devRef .tc main_arg7) = m ((c : Thread nD τ).loc main_arg7) :=
  (W2_of_ne m ρ c main_arg7 (by decide)).trans (at1_main_arg7 m ρ c)
theorem at2_main_v1 (c : Dev nD) :
    W2 m ρ c (Proc.devRef .tc main_v1) = transpose S256x128 [1, 0] (m ((c : Thread nD τ).loc main_arg6)) transposes_S128x256_S256x128_1_0 :=
  (W2_of_ne m ρ c main_v1 (by decide)).trans (at1_main_v1 m ρ c)

/-! ## After the first stretch between regions -/

theorem at3_main_arg1 (c : Dev nD) : W3 m ρ c (Proc.devRef .tc main_arg1) = m ((c : Thread nD τ).loc main_arg1) :=
  (show W3 m ρ c (Proc.devRef .tc main_arg1) = W2 m ρ c (Proc.devRef .tc main_arg1) by keeps hostOps1).trans (at2_main_arg1 m ρ c)
theorem at3_main_arg2 (c : Dev nD) : W3 m ρ c (Proc.devRef .tc main_arg2) = m ((c : Thread nD τ).loc main_arg2) :=
  (show W3 m ρ c (Proc.devRef .tc main_arg2) = W2 m ρ c (Proc.devRef .tc main_arg2) by keeps hostOps1).trans (at2_main_arg2 m ρ c)
theorem at3_main_arg3 (c : Dev nD) : W3 m ρ c (Proc.devRef .tc main_arg3) = m ((c : Thread nD τ).loc main_arg3) :=
  (show W3 m ρ c (Proc.devRef .tc main_arg3) = W2 m ρ c (Proc.devRef .tc main_arg3) by keeps hostOps1).trans (at2_main_arg3 m ρ c)
theorem at3_main_arg7 (c : Dev nD) : W3 m ρ c (Proc.devRef .tc main_arg7) = m ((c : Thread nD τ).loc main_arg7) :=
  (show W3 m ρ c (Proc.devRef .tc main_arg7) = W2 m ρ c (Proc.devRef .tc main_arg7) by keeps hostOps1).trans (at2_main_arg7 m ρ c)
theorem at3_main_v1 (c : Dev nD) :
    W3 m ρ c (Proc.devRef .tc main_v1) = transpose S256x128 [1, 0] (m ((c : Thread nD τ).loc main_arg6)) transposes_S128x256_S256x128_1_0 :=
  (show W3 m ρ c (Proc.devRef .tc main_v1) = W2 m ρ c (Proc.devRef .tc main_v1) by keeps hostOps1).trans (at2_main_v1 m ρ c)

set_option maxHeartbeats 1600000 in
/-- The first aggregation, of the array region 0 left. -/
theorem at3_main_v15 (c : Dev nD) :
    W3 m ρ c (Proc.devRef .tc main_v15)
      = aggregate256 (W2 m ρ c (Proc.devRef .tc main_v2)) (m ((c : Thread nD τ).loc main_arg1)) (m ((c : Thread nD τ).loc main_arg2)) (m ((c : Thread nD τ).loc main_arg3)) := by
  rw [← at2_main_arg1 m ρ c, ← at2_main_arg2 m ρ c, ← at2_main_arg3 m ρ c]
  show StableHlo.after hostOps1 (W2 m ρ c) (Proc.devRef .tc main_v15) = _
  after_results_simp
  all_goals rfl

/-- The first bias vector as a one-row array. -/
theorem at3_main_v16 (c : Dev nD) :
    W3 m ρ c (Proc.devRef .tc main_v16) = shapeCast S1x256 (m ((c : Thread nD τ).loc main_arg5)) shapeCasts_S256_S1x256 := by
  rw [← at2_main_arg5 m ρ c]
  show StableHlo.after hostOps1 (W2 m ρ c) (Proc.devRef .tc main_v16) = _
  after_results
  all_goals rfl

/-! ## After regions 1 and 2 (they write main_v17 and main_v18 only) -/

theorem at5_main_arg1 (c : Dev nD) : W5 m ρ c (Proc.devRef .tc main_arg1) = m ((c : Thread nD τ).loc main_arg1) :=
  (W5_of_ne m ρ c main_arg1 (by decide)).trans ((W4_of_ne m ρ c main_arg1 (by decide)).trans (at3_main_arg1 m ρ c))
theorem at5_main_arg2 (c : Dev nD) : W5 m ρ c (Proc.devRef .tc main_arg2) = m ((c : Thread nD τ).loc main_arg2) :=
  (W5_of_ne m ρ c main_arg2 (by decide)).trans ((W4_of_ne m ρ c main_arg2 (by decide)).trans (at3_main_arg2 m ρ c))
theorem at5_main_arg3 (c : Dev nD) : W5 m ρ c (Proc.devRef .tc main_arg3) = m ((c : Thread nD τ).loc main_arg3) :=
  (W5_of_ne m ρ c main_arg3 (by decide)).trans ((W4_of_ne m ρ c main_arg3 (by decide)).trans (at3_main_arg3 m ρ c))
theorem at5_main_arg7 (c : Dev nD) : W5 m ρ c (Proc.devRef .tc main_arg7) = m ((c : Thread nD τ).loc main_arg7) :=
  (W5_of_ne m ρ c main_arg7 (by decide)).trans ((W4_of_ne m ρ c main_arg7 (by decide)).trans (at3_main_arg7 m ρ c))
theorem at4_main_v1 (c : Dev nD) :
    W4 m ρ c (Proc.devRef .tc main_v1) = transpose S256x128 [1, 0] (m ((c : Thread nD τ).loc main_arg6)) transposes_S128x256_S256x128_1_0 :=
  (W4_of_ne m ρ c main_v1 (by decide)).trans (at3_main_v1 m ρ c)

/-! ## After the second stretch between regions -/

set_option maxHeartbeats 1600000 in
/-- The second aggregation, of the array region 2 left. -/
theorem at6_main_v31 (c : Dev nD) :
    W6 m ρ c (Proc.devRef .tc main_v31)
      = aggregate128 (W5 m ρ c (Proc.devRef .tc main_v18)) (m ((c : Thread nD τ).loc main_arg1)) (m ((c : Thread nD τ).loc main_arg2)) (m ((c : Thread nD τ).loc main_arg3)) := by
  rw [← at5_main_arg1 m ρ c, ← at5_main_arg2 m ρ c, ← at5_main_arg3 m ρ c]
  show StableHlo.after hostOps3 (W5 m ρ c) (Proc.devRef .tc main_v31) = _
  after_results_simp
  all_goals rfl

/-- The second bias vector as a one-row array. -/
theorem at6_main_v32 (c : Dev nD) :
    W6 m ρ c (Proc.devRef .tc main_v32) = shapeCast S1x128 (m ((c : Thread nD τ).loc main_arg7)) shapeCasts_S128_S1x128 := by
  rw [← at5_main_arg7 m ρ c]
  show StableHlo.after hostOps3 (W5 m ρ c) (Proc.devRef .tc main_v32) = _
  after_results
  all_goals rfl

end Cert.KernelIdeal.Whole

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibRowLayers.lean ====
/-
  Three row-wise layers on the extended reals, each in the form a kernel tile computes it and in the form the host
  computes it, for any extents.

  For an array x : [N, K], a matrix W : [K, C], an array s : [N, C] and a one-row array b : [1, C]:
    • `prod x W`            : entry (i, j) is ∑ k, x (i, k) · W (k, j);
    • `biasRelu s b`        : entry (i, j) is max (s (i, j) + b (0, j)) 0;
    • `biasNormalize ε s b` : with h (i, k) = s (i, k) + b (0, k), entry (i, j) is
                                h (i, j) / max (sqrt (∑ k, h (i, k) · h (i, k))) ε.
  Every entry of each depends on its own row of x (or s) only, so a block of rows of the layer is the layer of that
  block of rows: that is what lets a row-tiled kernel be compared with the host's whole-array program.
  A kernel tile forms the product by a matrix product of bf16-narrowed operands into a zero accumulator (a change
  of format is the identity here), the bias by a broadcast of the row down the tile, the sum of squares by a lane
  sum kept as a column; the host forms them by dot_general, by broadcast_in_dim and by reduce from a zero initial
  value. Each form is shown equal, as a whole array, to the function above. No entry is assumed finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«175998_j7516192768198_1_alg».proof.Proof.LibPlainDot
import proofs.«175998_j7516192768198_1_alg».proof.Proof.LibKeepdims

noncomputable section

namespace RowLayers

open Idealize.ShloMosaic Idealize.ShloMosaic.ValueIdx
open scoped BigOperators

/-! ## The three layers as functions of whole arrays -/

/-- The matrix product x · W. -/
def prod {N K C : Nat} (x : (⟨2, ![N, K]⟩ : Shape).Idx → EReal) (w : (⟨2, ![K, C]⟩ : Shape).Idx → EReal) :
    (⟨2, ![N, C]⟩ : Shape).Idx → EReal :=
  fun i => ∑ k : Fin K, x (ix2 (i 0) k) * w (ix2 k (i 1))

/-- A one-row bias added to every row, clamped below at zero. -/
def biasRelu {N C : Nat} (s : (⟨2, ![N, C]⟩ : Shape).Idx → EReal) (b : (⟨2, ![1, C]⟩ : Shape).Idx → EReal) :
    (⟨2, ![N, C]⟩ : Shape).Idx → EReal :=
  fun i => max (s i + b (ix2 (0 : Fin 1) (i 1))) 0

/-- A one-row bias added to every row, each row then divided by the larger of its Euclidean norm and ε. -/
def biasNormalize {N C : Nat} (ε : EReal) (s : (⟨2, ![N, C]⟩ : Shape).Idx → EReal) (b : (⟨2, ![1, C]⟩ : Shape).Idx → EReal) :
    (⟨2, ![N, C]⟩ : Shape).Idx → EReal :=
  fun i => Ideal.div (s i + b (ix2 (0 : Fin 1) (i 1)))
    (max (Ideal.sqrt (∑ k : Fin C, (s (ix2 (i 0) k) + b (ix2 (0 : Fin 1) k)) * (s (ix2 (i 0) k) + b (ix2 (0 : Fin 1) k)))) ε)

theorem prod_apply {N K C : Nat} (x : (⟨2, ![N, K]⟩ : Shape).Idx → EReal) (w : (⟨2, ![K, C]⟩ : Shape).Idx → EReal)
    (p : Fin N) (q : Fin C) : prod x w (ix2 p q) = ∑ k : Fin K, x (ix2 p k) * w (ix2 k q) := rfl

theorem biasRelu_apply {N C : Nat} (s : (⟨2, ![N, C]⟩ : Shape).Idx → EReal) (b : (⟨2, ![1, C]⟩ : Shape).Idx → EReal)
    (p : Fin N) (q : Fin C) : biasRelu s b (ix2 p q) = max (s (ix2 p q) + b (ix2 (0 : Fin 1) q)) 0 := rfl

theorem biasNormalize_apply {N C : Nat} (ε : EReal) (s : (⟨2, ![N, C]⟩ : Shape).Idx → EReal)
    (b : (⟨2, ![1, C]⟩ : Shape).Idx → EReal) (p : Fin N) (q : Fin C) :
    biasNormalize ε s b (ix2 p q) = Ideal.div (s (ix2 p q) + b (ix2 (0 : Fin 1) q))
      (max (Ideal.sqrt (∑ k : Fin C, (s (ix2 p k) + b (ix2 (0 : Fin 1) k)) * (s (ix2 p k) + b (ix2 (0 : Fin 1) k)))) ε) := rfl

/-! ## A block of rows of a layer is the layer of the block -/

/-- If the block xb holds, at (p, k), the array's row r p, then the product of the block at (p, q) is the
    product of the array at (r p, q). -/
theorem prod_rows {R N K C : Nat} (xb : (⟨2, ![R, K]⟩ : Shape).Idx → EReal) (x : (⟨2, ![N, K]⟩ : Shape).Idx → EReal)
    (w : (⟨2, ![K, C]⟩ : Shape).Idx → EReal) (p : Fin R) (n : Fin N) (q : Fin C)
    (hx : ∀ k : Fin K, xb (ix2 p k) = x (ix2 n k)) : prod xb w (ix2 p q) = prod x w (ix2 n q) := by
  rw [prod_apply, prod_apply]
  exact Finset.sum_congr rfl fun k _ => by rw [hx k]

theorem biasRelu_rows {R N C : Nat} (sb : (⟨2, ![R, C]⟩ : Shape).Idx → EReal) (s : (⟨2, ![N, C]⟩ : Shape).Idx → EReal)
    (b : (⟨2, ![1, C]⟩ : Shape).Idx → EReal) (p : Fin R) (n : Fin N) (q : Fin C)
    (hs : ∀ k : Fin C, sb (ix2 p k) = s (ix2 n k)) : biasRelu sb b (ix2 p q) = biasRelu s b (ix2 n q) := by
  rw [biasRelu_apply, biasRelu_apply, hs q]

theorem biasNormalize_rows {R N C : Nat} (ε : EReal) (sb : (⟨2, ![R, C]⟩ : Shape).Idx → EReal)
    (s : (⟨2, ![N, C]⟩ : Shape).Idx → EReal) (b : (⟨2, ![1, C]⟩ : Shape).Idx → EReal) (p : Fin R) (n : Fin N) (q : Fin C)
    (hs : ∀ k : Fin C, sb (ix2 p k) = s (ix2 n k)) : biasNormalize ε sb b (ix2 p q) = biasNormalize ε s b (ix2 n q) := by
  rw [biasNormalize_apply, biasNormalize_apply, hs q]
  refine congrArg (fun t => Ideal.div _ (max (Ideal.sqrt t) ε)) ?_
  exact Finset.sum_congr rfl fun k _ => by rw [hs k]

/-! ## The forms of a kernel tile -/

/-- The square root of a vector, at an index. -/
theorem sqrt_apply {s : Shape} {φ : FTy} (a : FVec Ideal s φ) (i : s.Idx) : sqrt a i = Ideal.sqrt (a i) := rfl

/-- A matrix product of plain dimension numbers, of operands narrowed to bf16, into the zero accumulator. -/
theorem matmul_tile {R K C : Nat} (d : DotDims ⟨2, ![R, K]⟩ ⟨2, ![K, C]⟩ ⟨2, ![R, C]⟩) (hd : d = DotDims.plain R K C)
    (prec : Option ContractPrecision) (hbits : FTy.bits .bf16 < FTy.bits .f32)
    (x0 : FVec Ideal ⟨2, ![R, K]⟩ .f32) (x1 : FVec Ideal ⟨2, ![K, C]⟩ .f32) :
    matmul d prec (truncf .bf16 x0 hbits) (truncf .bf16 x1 hbits) (constant (F := Ideal) ⟨2, ![R, C]⟩ .f32 0x00000000#32)
      = prod x0 x1 := by
  subst hd
  funext j
  obtain ⟨p, q, rfl⟩ : ∃ (p : Fin R) (q : Fin C), j = ix2 p q := ⟨j 0, j 1, eq_ix2 j⟩
  show FloatOps.matmul (DotDims.plain R K C) prec (truncf .bf16 x0 hbits) (truncf .bf16 x1 hbits)
    (constant ⟨2, ![R, C]⟩ .f32 0x00000000#32) (ix2 p q) = _
  rw [Ideal.matmul_constant_zero_apply]
  refine (Cert.PlainDot.contraction_eq (truncf .bf16 x0 hbits) (truncf .bf16 x1 hbits) p q).trans ?_
  rfl

/-- The row b broadcast down the tile and added, clamped below by the splat of the zero word. -/
theorem biasRelu_tile {R C : Nat} (x0 : FVec Ideal ⟨2, ![R, C]⟩ .f32) (x1 : FVec Ideal ⟨2, ![1, C]⟩ .f32)
    (h0 : (⟨2, ![R, C]⟩ : Shape).ShapeCasts ⟨2, ![R, C]⟩) (h1 : (⟨2, ![1, C]⟩ : Shape).ShapeCasts ⟨2, ![1, C]⟩)
    (hb : (⟨2, ![1, C]⟩ : Shape).Broadcasts ⟨2, ![R, C]⟩) :
    maximumf (addf (shapeCast ⟨2, ![R, C]⟩ x0 h0) (broadcastTo ⟨2, ![R, C]⟩ (shapeCast ⟨2, ![1, C]⟩ x1 h1) hb))
        (broadcast ⟨2, ![R, C]⟩ (Scalar.ofBits (F := Ideal) .f32 0x00000000#32))
      = biasRelu x0 x1 := by
  funext j
  obtain ⟨p, q, rfl⟩ : ∃ (p : Fin R) (q : Fin C), j = ix2 p q := ⟨j 0, j 1, eq_ix2 j⟩
  rw [shapeCast_self x0 h0, shapeCast_self x1 h1, maximumf_apply, addf_apply, broadcast_apply, broadcastTo_1b_ab_apply,
    biasRelu_apply]
  exact congrArg (max _) Ideal.ofBits_zero_f32

/-- The row sum of squares of h = x0 + b kept as a column, its square root clamped below by the splat of the word
    of ε, spread back over the tile, dividing h. -/
theorem biasNormalize_tile {R C : Nat} (εBits : BitVec 32) (x0 : FVec Ideal ⟨2, ![R, C]⟩ .f32) (x1 : FVec Ideal ⟨2, ![1, C]⟩ .f32)
    (h0 : (⟨2, ![R, C]⟩ : Shape).ShapeCasts ⟨2, ![R, C]⟩) (h1 : (⟨2, ![1, C]⟩ : Shape).ShapeCasts ⟨2, ![1, C]⟩)
    (hb : (⟨2, ![1, C]⟩ : Shape).Broadcasts ⟨2, ![R, C]⟩)
    (hred : (⟨2, ![R, C]⟩ : Shape).Reduces [1] (⟨1, ![R]⟩ : Shape)) (hφ : FKind.Formats .f32)
    (hacc : (0x00000000#32 : BitVec 32) = 0x00000000#32)
    (hc : (⟨1, ![R]⟩ : Shape).ShapeCasts ⟨2, ![R, 1]⟩) (hb2 : (⟨2, ![R, 1]⟩ : Shape).Broadcasts ⟨2, ![R, C]⟩) :
    divf (addf (shapeCast ⟨2, ![R, C]⟩ x0 h0) (broadcastTo ⟨2, ![R, C]⟩ (shapeCast ⟨2, ![1, C]⟩ x1 h1) hb))
        (broadcastTo ⟨2, ![R, C]⟩
          (maximumf
            (sqrt (shapeCast ⟨2, ![R, 1]⟩
              (multiReduction (F := Ideal) .add [1] ⟨1, ![R]⟩
                (mulf (addf (shapeCast ⟨2, ![R, C]⟩ x0 h0) (broadcastTo ⟨2, ![R, C]⟩ (shapeCast ⟨2, ![1, C]⟩ x1 h1) hb))
                  (addf (shapeCast ⟨2, ![R, C]⟩ x0 h0) (broadcastTo ⟨2, ![R, C]⟩ (shapeCast ⟨2, ![1, C]⟩ x1 h1) hb)))
                0x00000000#32 hred hφ hacc) hc))
            (broadcast ⟨2, ![R, 1]⟩ (Scalar.ofBits (F := Ideal) .f32 εBits))) hb2)
      = biasNormalize (Ideal.ofBits .f32 εBits) x0 x1 := by
  funext j
  obtain ⟨p, q, rfl⟩ : ∃ (p : Fin R) (q : Fin C), j = ix2 p q := ⟨j 0, j 1, eq_ix2 j⟩
  rw [shapeCast_self x0 h0, shapeCast_self x1 h1, divf_apply, addf_apply, broadcastTo_1b_ab_apply,
    Keepdims.broadcastTo_a1_ab_apply, maximumf_apply, broadcast_apply, sqrt_apply, Keepdims.shapeCast_a_a1_apply,
    Keepdims.laneSum_apply, biasNormalize_apply]
  refine congrArg (fun t => Ideal.div _ (max (Ideal.sqrt t) _)) ?_
  exact Finset.sum_congr rfl fun k _ => by rw [mulf_apply, addf_apply, broadcastTo_1b_ab_apply]

/-! ## The forms of the host -/

/-- The host's dot_general of plain dimension numbers. -/
theorem hostDot {N K C : Nat} (d : DotDims ⟨2, ![N, K]⟩ ⟨2, ![K, C]⟩ ⟨2, ![N, C]⟩) (hd : d = DotDims.plain N K C)
    (x : FVec Ideal ⟨2, ![N, K]⟩ .f32) (w : FVec Ideal ⟨2, ![K, C]⟩ .f32) : Host.dotGeneral d none x w = prod x w := by
  subst hd
  funext j
  obtain ⟨p, q, rfl⟩ : ∃ (p : Fin N) (q : Fin C), j = ix2 p q := ⟨j 0, j 1, eq_ix2 j⟩
  exact Cert.PlainDot.dotGeneral_apply none .single x w p q

/-- The host's bias row spread over the rows and added, clamped below by the zero scalar spread over the array. -/
theorem hostBiasRelu {N C : Nat} (hb : (⟨2, ![1, C]⟩ : Shape).BroadcastsInDim ⟨2, ![N, C]⟩ (![0, 1] : Fin 2 → Fin 2))
    (hz : (⟨0, ![]⟩ : Shape).BroadcastsInDim ⟨2, ![N, C]⟩ (![] : Fin 0 → Fin 2))
    (s : FVec Ideal ⟨2, ![N, C]⟩ .f32) (b : FVec Ideal ⟨2, ![1, C]⟩ .f32) :
    maximumf (addf s (broadcastInDim ⟨2, ![N, C]⟩ ![0, 1] hb b))
        (broadcastInDim ⟨2, ![N, C]⟩ ![] hz (constant (F := Ideal) ⟨0, ![]⟩ .f32 0x00000000#32))
      = biasRelu s b := by
  funext j
  obtain ⟨p, q, rfl⟩ : ∃ (p : Fin N) (q : Fin C), j = ix2 p q := ⟨j 0, j 1, eq_ix2 j⟩
  rw [maximumf_apply, addf_apply, broadcastInDim_oneRow_apply, broadcastInDim_scalar_apply, constant_apply, biasRelu_apply]
  exact congrArg (max _) Ideal.ofBits_zero_f32

/-- A vector spread to an [N, 1] column, at (p, z), is the vector at p. -/
theorem hostColumn_apply {α : Type} {N : Nat} (h : (⟨1, ![N]⟩ : Shape).BroadcastsInDim ⟨2, ![N, 1]⟩ (![0] : Fin 1 → Fin 2))
    (v : (⟨1, ![N]⟩ : Shape).Idx → α) (p : Fin N) (z : Fin 1) :
    broadcastInDim ⟨2, ![N, 1]⟩ ![0] h v (ix2 p z) = v (ix1 p) := by
  refine broadcastInDim_apply ![0] h v (ix2 p z) (ix1 p) fun a => ?_
  match a with
  | ⟨0, _⟩ =>
    show p.val = if N = 1 then 0 else p.val
    split
    · have := p.isLt; omega
    · rfl

/-- An [N, 1] column spread over [N, C], at (p, q), is the column at (p, 0). -/
theorem hostSpread_apply {α : Type} {N C : Nat}
    (h : (⟨2, ![N, 1]⟩ : Shape).BroadcastsInDim ⟨2, ![N, C]⟩ (![0, 1] : Fin 2 → Fin 2))
    (v : (⟨2, ![N, 1]⟩ : Shape).Idx → α) (p : Fin N) (q : Fin C) :
    broadcastInDim ⟨2, ![N, C]⟩ ![0, 1] h v (ix2 p q) = v (ix2 p (0 : Fin 1)) := by
  refine broadcastInDim_apply ![0, 1] h v (ix2 p q) (ix2 p (0 : Fin 1)) fun a => ?_
  match a with
  | ⟨0, _⟩ =>
    show p.val = if N = 1 then 0 else p.val
    split
    · have := p.isLt; omega
    · rfl
  | ⟨1, _⟩ => rfl

/-- The host's sum along the rows of an [N, C] array from an initial scalar, at p. -/
theorem hostRowSum_apply {N C : Nat} (x : FVec Ideal ⟨2, ![N, C]⟩ .f32) (init : (⟨0, ![]⟩ : Shape).Idx → Ideal .f32)
    (hr' : (⟨2, ![N, C]⟩ : Shape).ReducesTo [1] (⟨1, ![N]⟩ : Shape)) (hr : (⟨2, ![N, C]⟩ : Shape).Reduces [1] (⟨1, ![N]⟩ : Shape))
    (hu : 0 < (⟨0, ![]⟩ : Shape).numel) (p : Fin N) :
    Host.reduceAdd x init hr' hu (ix1 p) = init (Shape.Idx.first hu) + ∑ k : Fin C, x (ix2 p k) := by
  rw [hostReduceAdd_apply, Ideal.hostReduceAdd_single hr' hr]
  refine congrArg (_ + ·) ?_
  exact Finset.sum_congr rfl fun k _ => congrArg x (Keepdims.lift_lane hr p k)

/-- The host's square root of a vector, at an index. -/
theorem hostSqrt_apply {s : Shape} {φ : FTy} (a : FVec Ideal s φ) (i : s.Idx) : Host.sqrt a i = Ideal.sqrt (a i) := rfl

/-- The host's row normalisation: h = s + b spread over the rows, the row sums of h · h from the zero scalar made a
    column, its square root clamped below by the scalar ε spread over the column, the column spread over the array,
    dividing h. -/
theorem hostBiasNormalize {N C : Nat} (εBits : BitVec 32)
    (hb : (⟨2, ![1, C]⟩ : Shape).BroadcastsInDim ⟨2, ![N, C]⟩ (![0, 1] : Fin 2 → Fin 2))
    (hr' : (⟨2, ![N, C]⟩ : Shape).ReducesTo [1] (⟨1, ![N]⟩ : Shape)) (hr : (⟨2, ![N, C]⟩ : Shape).Reduces [1] (⟨1, ![N]⟩ : Shape))
    (hu : 0 < (⟨0, ![]⟩ : Shape).numel)
    (hcol : (⟨1, ![N]⟩ : Shape).BroadcastsInDim ⟨2, ![N, 1]⟩ (![0] : Fin 1 → Fin 2))
    (hε : (⟨0, ![]⟩ : Shape).BroadcastsInDim ⟨2, ![N, 1]⟩ (![] : Fin 0 → Fin 2))
    (hsp : (⟨2, ![N, 1]⟩ : Shape).BroadcastsInDim ⟨2, ![N, C]⟩ (![0, 1] : Fin 2 → Fin 2))
    (s : FVec Ideal ⟨2, ![N, C]⟩ .f32) (b : FVec Ideal ⟨2, ![1, C]⟩ .f32) :
    Host.divf (addf s (broadcastInDim ⟨2, ![N, C]⟩ ![0, 1] hb b))
        (broadcastInDim ⟨2, ![N, C]⟩ ![0, 1] hsp
          (maximumf
            (Host.sqrt (broadcastInDim ⟨2, ![N, 1]⟩ ![0] hcol
              (Host.reduceAdd
                (mulf (addf s (broadcastInDim ⟨2, ![N, C]⟩ ![0, 1] hb b)) (addf s (broadcastInDim ⟨2, ![N, C]⟩ ![0, 1] hb b)))
                (constant (F := Ideal) ⟨0, ![]⟩ .f32 0x00000000#32) hr' hu)))
            (broadcastInDim ⟨2, ![N, 1]⟩ ![] hε (constant (F := Ideal) ⟨0, ![]⟩ .f32 εBits))))
      = biasNormalize (Ideal.ofBits .f32 εBits) s b := by
  funext j
  obtain ⟨p, q, rfl⟩ : ∃ (p : Fin N) (q : Fin C), j = ix2 p q := ⟨j 0, j 1, eq_ix2 j⟩
  rw [hostDivf_apply, addf_apply, broadcastInDim_oneRow_apply, hostSpread_apply, maximumf_apply, hostSqrt_apply,
    hostColumn_apply, hostRowSum_apply _ _ hr' hr hu, broadcastInDim_scalar_apply, constant_apply, constant_apply,
    Ideal.ofBits_zero_f32, zero_add, biasNormalize_apply]
  refine congrArg (fun t => Ideal.div _ (max (Ideal.sqrt t) _)) ?_
  exact Finset.sum_congr rfl fun k _ => by rw [mulf_apply, addf_apply, broadcastInDim_oneRow_apply]

/-- A vector reshaped to one row is the vector spread along axis 1 of a one-row array. -/
theorem row_eq {α : Type} {C : Nat} (hc : (⟨1, ![C]⟩ : Shape).ShapeCasts ⟨2, ![1, C]⟩)
    (hb : (⟨1, ![C]⟩ : Shape).BroadcastsInDim ⟨2, ![1, C]⟩ (![1] : Fin 1 → Fin 2)) (b : (⟨1, ![C]⟩ : Shape).Idx → α) :
    shapeCast ⟨2, ![1, C]⟩ b hc = broadcastInDim ⟨2, ![1, C]⟩ ![1] hb b := by
  funext j
  obtain ⟨z, q, rfl⟩ : ∃ (z : Fin 1) (q : Fin C), j = ix2 z q := ⟨j 0, j 1, eq_ix2 j⟩
  have hz : z = 0 := Subsingleton.elim _ _
  subst hz
  rw [shapeCast_a_1a_apply b hc 0 q]
  refine (broadcastInDim_apply ![1] hb b (ix2 (0 : Fin 1) q) (ix1 q) fun a => ?_).symm
  match a with
  | ⟨0, _⟩ =>
    show q.val = if C = 1 then 0 else q.val
    split
    · have := q.isLt; omega
    · rfl

end RowLayers

end
-- ==== Proof.Region0.lean ====
/-
  Region 0: the first product. The grid has 25 points; point t multiplies rows 2000·t … 2000·t + 1999 of the first array
  by the whole [300, 256] matrix and writes rows 2000·t … of the output. The output array after the region is the
  product of the two arrays the region found.
-/
import proofs.«175998_j7516192768198_1_alg».proof.Proof.Gen.KernelIdeal.Frame
import proofs.«175998_j7516192768198_1_alg».proof.Proof.LibRowLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin0 : (![0, 0] : Fin 2 → Nat) = fun _ => 0 := funext fun a => by fin_cases a <;> rfl

/-- What the body stores, as a function of the two blocks it loads. -/
theorem stored0 (x0 : FVec Ideal S2000x300 .f32) (x1 : FVec Ideal S300x256 .f32) :
    k0_pay1 (F := Ideal) x0 x1 = RowLayers.prod (N := 2000) (K := 300) (C := 256) x0 x1 := by
  show matmul dot_S2000x300_S300x256_S2000x256_1_0_0_1_n_n none (truncf .bf16 x0 bitsLt_bf16_f32)
      (truncf .bf16 (shapeCast S300x256 x1 shapeCasts_S300x256_S300x256) bitsLt_bf16_f32) (constant S2000x256 .f32 0x00000000#32) = _
  rw [shapeCast_self x1]
  exact RowLayers.matmul_tile dot_S2000x300_S300x256_S2000x256_1_0_0_1_n_n rfl none bitsLt_bf16_f32 x0 x1

/-- The three windows' block indices over the grid: the row window and the output window move together along the
    rows, the second operand is one block, and there are 25 row blocks. -/
theorem blockIdx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block is some point's. -/
theorem blockOnto0 : ∀ q0 : Fin 25, ∃ t : Fin cfg0.N, win0_2.index t = ![q0.val, 0] :=
  (by decide +kernel : ∀ q0 : Fin 25, ∃ t : Fin grid0.N, win0_2.index t = ![q0.val, 0])

/-- The second operand's block at any point is its whole array. -/
theorem operand0 (c : Dev nD) (t : Fin cfg0.N) : iblk0 V c 1 t = V c main_v0 := by
  obtain ⟨e0, e1, e2, e3, e4, e5⟩ := blockIdx0 t
  funext y
  show V c main_v0 (((cfg0.win 1).blk t).view.emb y) = V c main_v0 y
  refine congrArg _ (funext fun a => Fin.ext ?_)
  match a with
  | ⟨0, _⟩ => show win0_1.index t (0 : Fin 2) * 300 + 1 * (y 0).val = (y 0).val; omega
  | ⟨1, _⟩ => show win0_1.index t (1 : Fin 2) * 256 + 1 * (y 1).val = (y 1).val; omega

/-- What point t writes back is block t of the layer of the whole arrays as the region finds them: an entry of the
    layer depends on its own row of the first operand only, and the point's first block holds those rows. -/
theorem written0 (c : Dev nD) (t : Fin cfg0.N) :
    (dat0 V c).flushed 2 t = ((cfg0.win 2).blk t).view.read (Elt Ideal)
      (RowLayers.prod (N := 50000) (K := 300) (C := 256) (V c main_arg0) (V c main_v0)) := by
  show (cfg0.win 2).cut (grid0.coords t) ((dat0 V c).after 2 t) = _
  rw [after0_2]
  unfold out0_2
  rw [View.canon_unit_zero origin0]
  simp only [View.ld_unit_zero (S := S2000x300) origin0, View.ld_unit_zero (S := S300x256) origin0]
  rw [stored0, operand0]
  obtain ⟨e0, e1, e2, e3, e4, e5⟩ := blockIdx0 t
  funext j
  obtain ⟨p, q, rfl⟩ : ∃ (p : Fin 2000) (q : Fin 256), j = ix2 p q := ⟨j 0, j 1, eq_ix2 j⟩
  show RowLayers.prod (N := 2000) (K := 300) (C := 256) (iblk0 V c 0 t) (V c main_v0) (ix2 p q)
    = RowLayers.prod (N := 50000) (K := 300) (C := 256) (V c main_arg0) (V c main_v0) (((cfg0.win 2).blk t).view.emb (ix2 p q))
  have h1 : (((cfg0.win 2).blk t).view.emb (ix2 p q)) 1 = q :=
    Fin.ext (by show win0_2.index t (1 : Fin 2) * 256 + 1 * q.val = q.val; omega)
  rw [eq_ix2 (((cfg0.win 2).blk t).view.emb (ix2 p q)), h1]
  refine RowLayers.prod_rows (iblk0 V c 0 t) (V c main_arg0) (V c main_v0) p _ q (fun k => ?_)
  show V c main_arg0 (((cfg0.win 0).blk t).view.emb (ix2 p k)) = V c main_arg0 (ix2 _ k)
  refine congrArg _ (funext fun a => Fin.ext ?_)
  match a with
  | ⟨0, _⟩ => show win0_0.index t (0 : Fin 2) * 2000 + 1 * p.val = win0_2.index t (0 : Fin 2) * 2000 + 1 * p.val; omega
  | ⟨1, _⟩ => show win0_0.index t (1 : Fin 2) * 300 + 1 * k.val = k.val; omega

/-- An index of the output array is in point t's block iff each coordinate is in the block's range on its axis. -/
theorem inBlock0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v2).slice (win0_2.rect t)).set ↔ _
  rw [View.set_slice_whole, Rect.mem_set_unit]
  exact Iff.rfl

/-- Row r of the output array lies in the block of the point whose row block is r / 2000. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := blockOnto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [inBlock0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The output array after the region, whatever the region found in its buffers: the layer of the two arrays. -/
theorem region0 (c : Dev nD) :
    (dat0 V c).arrAt 2 cfg0.N = RowLayers.prod (N := 50000) (K := 300) (C := 256) (V c main_arg0) (V c main_v0) :=
  (dat0 V c).arrAt_eq_of_cover 2 _ (fun t _ => written0 V c t) covered0

end Cert.KernelIdeal.Whole

end
-- ==== Proof.Region1.lean ====
/-
  Region 1: bias and clamp. The grid has 10 points; point t adds the one-row bias to rows 5000·t … 5000·t + 4999 of
  the first array, clamps below at zero and writes those rows of the output. The output array after the region is
  that layer of the two arrays the region found.
-/
import proofs.«175998_j7516192768198_1_alg».proof.Proof.Gen.KernelIdeal.Frame
import proofs.«175998_j7516192768198_1_alg».proof.Proof.LibRowLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin1 : (![0, 0] : Fin 2 → Nat) = fun _ => 0 := funext fun a => by fin_cases a <;> rfl

/-- What the body stores, as a function of the two blocks it loads. -/
theorem stored1 (x0 : FVec Ideal S5000x256 .f32) (x1 : FVec Ideal S1x256 .f32) :
    k1_pay1 (F := Ideal) x0 x1 = RowLayers.biasRelu (N := 5000) (C := 256) x0 x1 := by
  exact RowLayers.biasRelu_tile x0 x1 shapeCasts_S5000x256_S5000x256 shapeCasts_S1x256_S1x256 broadcasts_S1x256_S5000x256

/-- The three windows' block indices over the grid: the row window and the output window move together along the
    rows, the second operand is one block, and there are 10 row blocks. -/
theorem blockIdx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem blockOnto1 : ∀ q0 : Fin 10, ∃ t : Fin cfg1.N, win1_2.index t = ![q0.val, 0] :=
  (by decide +kernel : ∀ q0 : Fin 10, ∃ t : Fin grid1.N, win1_2.index t = ![q0.val, 0])

/-- The second operand's block at any point is its whole array. -/
theorem operand1 (c : Dev nD) (t : Fin cfg1.N) : iblk1 V c 1 t = V c main_v16 := by
  obtain ⟨e0, e1, e2, e3, e4, e5⟩ := blockIdx1 t
  funext y
  show V c main_v16 (((cfg1.win 1).blk t).view.emb y) = V c main_v16 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 256 + 1 * (y 1).val = (y 1).val; omega

/-- What point t writes back is block t of the layer of the whole arrays as the region finds them: an entry of the
    layer depends on its own row of the first operand only, and the point's first block holds those rows. -/
theorem written1 (c : Dev nD) (t : Fin cfg1.N) :
    (dat1 V c).flushed 2 t = ((cfg1.win 2).blk t).view.read (Elt Ideal)
      (RowLayers.biasRelu (N := 50000) (C := 256) (V c main_v15) (V c main_v16)) := by
  show (cfg1.win 2).cut (grid1.coords t) ((dat1 V c).after 2 t) = _
  rw [after1_2]
  unfold out1_2
  rw [View.canon_unit_zero origin1]
  simp only [View.ld_unit_zero (S := S5000x256) origin1, View.ld_unit_zero (S := S1x256) origin1]
  rw [stored1, operand1]
  obtain ⟨e0, e1, e2, e3, e4, e5⟩ := blockIdx1 t
  funext j
  obtain ⟨p, q, rfl⟩ : ∃ (p : Fin 5000) (q : Fin 256), j = ix2 p q := ⟨j 0, j 1, eq_ix2 j⟩
  show RowLayers.biasRelu (N := 5000) (C := 256) (iblk1 V c 0 t) (V c main_v16) (ix2 p q)
    = RowLayers.biasRelu (N := 50000) (C := 256) (V c main_v15) (V c main_v16) (((cfg1.win 2).blk t).view.emb (ix2 p q))
  have h1 : (((cfg1.win 2).blk t).view.emb (ix2 p q)) 1 = q :=
    Fin.ext (by show win1_2.index t (1 : Fin 2) * 256 + 1 * q.val = q.val; omega)
  rw [eq_ix2 (((cfg1.win 2).blk t).view.emb (ix2 p q)), h1]
  refine RowLayers.biasRelu_rows (iblk1 V c 0 t) (V c main_v15) (V c main_v16) p _ q (fun k => ?_)
  show V c main_v15 (((cfg1.win 0).blk t).view.emb (ix2 p k)) = V c main_v15 (ix2 _ k)
  refine congrArg _ (funext fun a => Fin.ext ?_)
  match a with
  | ⟨0, _⟩ => show win1_0.index t (0 : Fin 2) * 5000 + 1 * p.val = win1_2.index t (0 : Fin 2) * 5000 + 1 * p.val; omega
  | ⟨1, _⟩ => show win1_0.index t (1 : Fin 2) * 256 + 1 * k.val = k.val; omega

/-- An index of the output array is in point t's block iff each coordinate is in the block's range on its axis. -/
theorem inBlock1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v17).slice (win1_2.rect t)).set ↔ _
  rw [View.set_slice_whole, Rect.mem_set_unit]
  exact Iff.rfl

/-- Row r of the output array lies in the block of the point whose row block is r / 5000. -/
theorem covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := blockOnto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [inBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The output array after the region, whatever the region found in its buffers: the layer of the two arrays. -/
theorem region1 (c : Dev nD) :
    (dat1 V c).arrAt 2 cfg1.N = RowLayers.biasRelu (N := 50000) (C := 256) (V c main_v15) (V c main_v16) :=
  (dat1 V c).arrAt_eq_of_cover 2 _ (fun t _ => written1 V c t) covered1

end Cert.KernelIdeal.Whole

end
-- ==== Proof.Region2.lean ====
/-
  Region 2: the second product. The grid has 25 points; point t multiplies rows 2000·t … 2000·t + 1999 of the first
  array by the whole [256, 128] matrix and writes those rows of the output. The output array after the region is the
  product of the two arrays the region found.
-/
import proofs.«175998_j7516192768198_1_alg».proof.Proof.Gen.KernelIdeal.Frame
import proofs.«175998_j7516192768198_1_alg».proof.Proof.LibRowLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- What the body stores, as a function of the two blocks it loads. -/
theorem stored2 (x0 : FVec Ideal S2000x256 .f32) (x1 : FVec Ideal S256x128 .f32) :
    k2_pay1 (F := Ideal) x0 x1 = RowLayers.prod (N := 2000) (K := 256) (C := 128) x0 x1 := by
  show matmul dot_S2000x256_S256x128_S2000x128_1_0_0_1_n_n none (truncf .bf16 (shapeCast S2000x256 x0 shapeCasts_S2000x256_S2000x256) bitsLt_bf16_f32)
      (truncf .bf16 (shapeCast S256x128 x1 shapeCasts_S256x128_S256x128) bitsLt_bf16_f32) (constant S2000x128 .f32 0x00000000#32) = _
  rw [shapeCast_self x0, shapeCast_self x1]
  exact RowLayers.matmul_tile dot_S2000x256_S256x128_S2000x128_1_0_0_1_n_n rfl none bitsLt_bf16_f32 x0 x1

/-- The three windows' block indices over the grid: the row window and the output window move together along the
    rows, the second operand is one block, and there are 25 row blocks. -/
theorem blockIdx2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every row block is some point's. -/
theorem blockOnto2 : ∀ q0 : Fin 25, ∃ t : Fin cfg2.N, win2_2.index t = ![q0.val, 0] :=
  (by decide +kernel : ∀ q0 : Fin 25, ∃ t : Fin grid2.N, win2_2.index t = ![q0.val, 0])

/-- The second operand's block at any point is its whole array. -/
theorem operand2 (c : Dev nD) (t : Fin cfg2.N) : iblk2 V c 1 t = V c main_v1 := by
  obtain ⟨e0, e1, e2, e3, e4, e5⟩ := blockIdx2 t
  funext y
  show V c main_v1 (((cfg2.win 1).blk t).view.emb y) = V c main_v1 y
  refine congrArg _ (funext fun a => Fin.ext ?_)
  match a with
  | ⟨0, _⟩ => show win2_1.index t (0 : Fin 2) * 256 + 1 * (y 0).val = (y 0).val; omega
  | ⟨1, _⟩ => show win2_1.index t (1 : Fin 2) * 128 + 1 * (y 1).val = (y 1).val; omega

/-- What point t writes back is block t of the layer of the whole arrays as the region finds them: an entry of the
    layer depends on its own row of the first operand only, and the point's first block holds those rows. -/
theorem written2 (c : Dev nD) (t : Fin cfg2.N) :
    (dat2 V c).flushed 2 t = ((cfg2.win 2).blk t).view.read (Elt Ideal)
      (RowLayers.prod (N := 50000) (K := 256) (C := 128) (V c main_v17) (V c main_v1)) := by
  show (cfg2.win 2).cut (grid2.coords t) ((dat2 V c).after 2 t) = _
  rw [after2_2]
  unfold out2_2
  rw [View.canon_unit_zero origin2]
  simp only [View.ld_unit_zero (S := S2000x256) origin2, View.ld_unit_zero (S := S256x128) origin2]
  rw [stored2, operand2]
  obtain ⟨e0, e1, e2, e3, e4, e5⟩ := blockIdx2 t
  funext j
  obtain ⟨p, q, rfl⟩ : ∃ (p : Fin 2000) (q : Fin 128), j = ix2 p q := ⟨j 0, j 1, eq_ix2 j⟩
  show RowLayers.prod (N := 2000) (K := 256) (C := 128) (iblk2 V c 0 t) (V c main_v1) (ix2 p q)
    = RowLayers.prod (N := 50000) (K := 256) (C := 128) (V c main_v17) (V c main_v1) (((cfg2.win 2).blk t).view.emb (ix2 p q))
  have h1 : (((cfg2.win 2).blk t).view.emb (ix2 p q)) 1 = q :=
    Fin.ext (by show win2_2.index t (1 : Fin 2) * 128 + 1 * q.val = q.val; omega)
  rw [eq_ix2 (((cfg2.win 2).blk t).view.emb (ix2 p q)), h1]
  refine RowLayers.prod_rows (iblk2 V c 0 t) (V c main_v17) (V c main_v1) p _ q (fun k => ?_)
  show V c main_v17 (((cfg2.win 0).blk t).view.emb (ix2 p k)) = V c main_v17 (ix2 _ k)
  refine congrArg _ (funext fun a => Fin.ext ?_)
  match a with
  | ⟨0, _⟩ => show win2_0.index t (0 : Fin 2) * 2000 + 1 * p.val = win2_2.index t (0 : Fin 2) * 2000 + 1 * p.val; omega
  | ⟨1, _⟩ => show win2_0.index t (1 : Fin 2) * 256 + 1 * k.val = k.val; omega

/-- An index of the output array is in point t's block iff each coordinate is in the block's range on its axis. -/
theorem inBlock2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v18).slice (win2_2.rect t)).set ↔ _
  rw [View.set_slice_whole, Rect.mem_set_unit]
  exact Iff.rfl

/-- Row r of the output array lies in the block of the point whose row block is r / 2000. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blockOnto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [inBlock2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region, whatever the region found in its buffers: the layer of the two arrays. -/
theorem region2 (c : Dev nD) :
    (dat2 V c).arrAt 2 cfg2.N = RowLayers.prod (N := 50000) (K := 256) (C := 128) (V c main_v17) (V c main_v1) :=
  (dat2 V c).arrAt_eq_of_cover 2 _ (fun t _ => written2 V c t) covered2

end Cert.KernelIdeal.Whole

end
-- ==== Proof.Region3.lean ====
/-
  Region 3: bias and row normalisation. The grid has 10 points; point t adds the one-row bias to rows 5000·t … of the
  first array and divides each row by the larger of its Euclidean norm and ε, writing those rows of the output. A row's
  norm reads that row only, so the output array after the region is that layer of the two arrays the region found.
-/
import proofs.«175998_j7516192768198_1_alg».proof.Proof.Gen.KernelIdeal.Frame
import proofs.«175998_j7516192768198_1_alg».proof.Proof.LibRowLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin3 : (![0, 0] : Fin 2 → Nat) = fun _ => 0 := funext fun a => by fin_cases a <;> rfl

/-- What the body stores, as a function of the two blocks it loads. -/
theorem stored3 (x0 : FVec Ideal S5000x128 .f32) (x1 : FVec Ideal S1x128 .f32) :
    k3_pay1 (F := Ideal) x0 x1 = RowLayers.biasNormalize (N := 5000) (C := 128) (Ideal.ofBits .f32 0x2B8CBCCC#32) x0 x1 := by
  exact RowLayers.biasNormalize_tile 0x2B8CBCCC#32 x0 x1 shapeCasts_S5000x128_S5000x128 shapeCasts_S1x128_S1x128 broadcasts_S1x128_S5000x128
    reduces_S5000x128_S5000 (.inl rfl) rfl shapeCasts_S5000_S5000x1 broadcasts_S5000x1_S5000x128

/-- The three windows' block indices over the grid: the row window and the output window move together along the
    rows, the second operand is one block, and there are 10 row blocks. -/
theorem blockIdx3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block is some point's. -/
theorem blockOnto3 : ∀ q0 : Fin 10, ∃ t : Fin cfg3.N, win3_2.index t = ![q0.val, 0] :=
  (by decide +kernel : ∀ q0 : Fin 10, ∃ t : Fin grid3.N, win3_2.index t = ![q0.val, 0])

/-- The second operand's block at any point is its whole array. -/
theorem operand3 (c : Dev nD) (t : Fin cfg3.N) : iblk3 V c 1 t = V c main_v32 := by
  obtain ⟨e0, e1, e2, e3, e4, e5⟩ := blockIdx3 t
  funext y
  show V c main_v32 (((cfg3.win 1).blk t).view.emb y) = V c main_v32 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- What point t writes back is block t of the layer of the whole arrays as the region finds them: an entry of the
    layer depends on its own row of the first operand only, and the point's first block holds those rows. -/
theorem written3 (c : Dev nD) (t : Fin cfg3.N) :
    (dat3 V c).flushed 2 t = ((cfg3.win 2).blk t).view.read (Elt Ideal)
      (RowLayers.biasNormalize (N := 50000) (C := 128) (Ideal.ofBits .f32 0x2B8CBCCC#32) (V c main_v31) (V c main_v32)) := by
  show (cfg3.win 2).cut (grid3.coords t) ((dat3 V c).after 2 t) = _
  rw [after3_2]
  unfold out3_2
  rw [View.canon_unit_zero origin3]
  simp only [View.ld_unit_zero (S := S5000x128) origin3, View.ld_unit_zero (S := S1x128) origin3]
  rw [stored3, operand3]
  obtain ⟨e0, e1, e2, e3, e4, e5⟩ := blockIdx3 t
  funext j
  obtain ⟨p, q, rfl⟩ : ∃ (p : Fin 5000) (q : Fin 128), j = ix2 p q := ⟨j 0, j 1, eq_ix2 j⟩
  show RowLayers.biasNormalize (N := 5000) (C := 128) (Ideal.ofBits .f32 0x2B8CBCCC#32) (iblk3 V c 0 t) (V c main_v32) (ix2 p q)
    = RowLayers.biasNormalize (N := 50000) (C := 128) (Ideal.ofBits .f32 0x2B8CBCCC#32) (V c main_v31) (V c main_v32) (((cfg3.win 2).blk t).view.emb (ix2 p q))
  have h1 : (((cfg3.win 2).blk t).view.emb (ix2 p q)) 1 = q :=
    Fin.ext (by show win3_2.index t (1 : Fin 2) * 128 + 1 * q.val = q.val; omega)
  rw [eq_ix2 (((cfg3.win 2).blk t).view.emb (ix2 p q)), h1]
  refine RowLayers.biasNormalize_rows (Ideal.ofBits .f32 0x2B8CBCCC#32) (iblk3 V c 0 t) (V c main_v31) (V c main_v32) p _ q (fun k => ?_)
  show V c main_v31 (((cfg3.win 0).blk t).view.emb (ix2 p k)) = V c main_v31 (ix2 _ k)
  refine congrArg _ (funext fun a => Fin.ext ?_)
  match a with
  | ⟨0, _⟩ => show win3_0.index t (0 : Fin 2) * 5000 + 1 * p.val = win3_2.index t (0 : Fin 2) * 5000 + 1 * p.val; omega
  | ⟨1, _⟩ => show win3_0.index t (1 : Fin 2) * 128 + 1 * k.val = k.val; omega

/-- An index of the output array is in point t's block iff each coordinate is in the block's range on its axis. -/
theorem inBlock3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v33).slice (win3_2.rect t)).set ↔ _
  rw [View.set_slice_whole, Rect.mem_set_unit]
  exact Iff.rfl

/-- Row r of the output array lies in the block of the point whose row block is r / 5000. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := blockOnto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [inBlock3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region, whatever the region found in its buffers: the layer of the two arrays. -/
theorem region3 (c : Dev nD) :
    (dat3 V c).arrAt 2 cfg3.N = RowLayers.biasNormalize (N := 50000) (C := 128) (Ideal.ofBits .f32 0x2B8CBCCC#32) (V c main_v31) (V c main_v32) :=
  (dat3 V c).arrAt_eq_of_cover 2 _ (fun t _ => written3 V c t) covered3

end Cert.KernelIdeal.Whole

end
-- ==== Proof.KernelValue.lean ====
/-
  The result array of the idealized kernel as one function of its eight arguments.

  With x the node features, (row, col, val) the edges, W₁, b₁, W₂, b₂ the two layers' weights and biases, and
  A h the sparse aggregation of the rows of h along the edges, the result is
      normalize (A (relu (A (x · W₁ᵀ) + b₁) · W₂ᵀ) + b₂),
  where relu clamps below at zero and normalize divides each row by the larger of its Euclidean norm and the
  constant ε. It is read off the fold through the program's segments: each region's output array is its layer of
  the arrays the region found (the region modules), and what a region finds is what the segments before it left
  (the boundaries module).
-/
import proofs.«175998_j7516192768198_1_alg».proof.Proof.KernelRun
import proofs.«175998_j7516192768198_1_alg».proof.Proof.Boundaries
import proofs.«175998_j7516192768198_1_alg».proof.Proof.Region0
import proofs.«175998_j7516192768198_1_alg».proof.Proof.Region1
import proofs.«175998_j7516192768198_1_alg».proof.Proof.Region2
import proofs.«175998_j7516192768198_1_alg».proof.Proof.Region3

set_option maxRecDepth 16384

noncomputable section

namespace Cert.KernelIdeal.Whole

open Cert.KernelIdeal Cert.KernelIdeal.Gen
open Idealize.ShloMosaic Idealize.ShloMosaic.TcCoe Idealize.SL.Sem

/-- normalize (A (relu (A (x · W₁ᵀ) + b₁) · W₂ᵀ) + b₂) as a function of the eight argument arrays. -/
def result (x : (⟨S50000x300, .f32⟩ : BufTy).Contents (Elt Ideal)) (row col : (⟨S800000, .i32⟩ : BufTy).Contents (Elt Ideal)) (val : (⟨S800000, .f32⟩ : BufTy).Contents (Elt Ideal))
    (W1 : (⟨S256x300, .f32⟩ : BufTy).Contents (Elt Ideal)) (b1 : (⟨S256, .f32⟩ : BufTy).Contents (Elt Ideal)) (W2 : (⟨S128x256, .f32⟩ : BufTy).Contents (Elt Ideal)) (b2 : (⟨S128, .f32⟩ : BufTy).Contents (Elt Ideal)) :
    (⟨S50000x128, .f32⟩ : BufTy).Contents (Elt Ideal) :=
  RowLayers.biasNormalize (N := 50000) (C := 128) (Ideal.ofBits .f32 0x2B8CBCCC#32)
    (aggregate128
      (RowLayers.prod (N := 50000) (K := 256) (C := 128)
        (RowLayers.biasRelu (N := 50000) (C := 256)
          (aggregate256 (RowLayers.prod (N := 50000) (K := 300) (C := 256) x (transpose S300x256 [1, 0] W1 transposes_S256x300_S300x256_1_0)) row col val)
          (shapeCast S1x256 b1 shapeCasts_S256_S1x256))
        (transpose S256x128 [1, 0] W2 transposes_S128x256_S256x128_1_0))
      row col val)
    (shapeCast S1x128 b2 shapeCasts_S128_S1x128)

variable (m : (ℓ : Loc nD τ sig) → Buf (Elt Ideal) ℓ) (ρ : Dev nD → PrngReg)

/-- After region 0 its output array is x · W₁ᵀ. -/
theorem after0 (c : Dev nD) : W2 m ρ c (Proc.devRef .tc main_v2) = RowLayers.prod (N := 50000) (K := 300) (C := 256) (m ((c : Thread nD τ).loc main_arg0)) (transpose S300x256 [1, 0] (m ((c : Thread nD τ).loc main_arg4)) transposes_S256x300_S300x256_1_0) := by
  refine (W2_arr m ρ c 2).trans ((region0 (V1 m ρ) c).trans ?_)
  show RowLayers.prod (N := 50000) (K := 300) (C := 256) (W1 m ρ c (Proc.devRef .tc main_arg0)) (W1 m ρ c (Proc.devRef .tc main_v0)) = _
  rw [at1_main_arg0, at1_main_v0]

/-- After region 1 its output array is relu (A (x · W₁ᵀ) + b₁). -/
theorem after1 (c : Dev nD) : W4 m ρ c (Proc.devRef .tc main_v17) = RowLayers.biasRelu (N := 50000) (C := 256) (aggregate256 (RowLayers.prod (N := 50000) (K := 300) (C := 256) (m ((c : Thread nD τ).loc main_arg0)) (transpose S300x256 [1, 0] (m ((c : Thread nD τ).loc main_arg4)) transposes_S256x300_S300x256_1_0)) (m ((c : Thread nD τ).loc main_arg1)) (m ((c : Thread nD τ).loc main_arg2)) (m ((c : Thread nD τ).loc main_arg3))) (shapeCast S1x256 (m ((c : Thread nD τ).loc main_arg5)) shapeCasts_S256_S1x256) := by
  refine (W4_arr m ρ c 2).trans ((region1 (V3 m ρ) c).trans ?_)
  show RowLayers.biasRelu (N := 50000) (C := 256) (W3 m ρ c (Proc.devRef .tc main_v15)) (W3 m ρ c (Proc.devRef .tc main_v16)) = _
  rw [at3_main_v15, at3_main_v16, after0]

/-- After region 2 its output array is relu (A (x · W₁ᵀ) + b₁) · W₂ᵀ. -/
theorem after2 (c : Dev nD) : W5 m ρ c (Proc.devRef .tc main_v18) = RowLayers.prod (N := 50000) (K := 256) (C := 128) (RowLayers.biasRelu (N := 50000) (C := 256) (aggregate256 (RowLayers.prod (N := 50000) (K := 300) (C := 256) (m ((c : Thread nD τ).loc main_arg0)) (transpose S300x256 [1, 0] (m ((c : Thread nD τ).loc main_arg4)) transposes_S256x300_S300x256_1_0)) (m ((c : Thread nD τ).loc main_arg1)) (m ((c : Thread nD τ).loc main_arg2)) (m ((c : Thread nD τ).loc main_arg3))) (shapeCast S1x256 (m ((c : Thread nD τ).loc main_arg5)) shapeCasts_S256_S1x256)) (transpose S256x128 [1, 0] (m ((c : Thread nD τ).loc main_arg6)) transposes_S128x256_S256x128_1_0) := by
  refine (W5_arr m ρ c 2).trans ((region2 (V4 m ρ) c).trans ?_)
  show RowLayers.prod (N := 50000) (K := 256) (C := 128) (W4 m ρ c (Proc.devRef .tc main_v17)) (W4 m ρ c (Proc.devRef .tc main_v1)) = _
  rw [after1, at4_main_v1]

/-- After region 3 the result array is `result` of the arguments. -/
theorem after3 (c : Dev nD) :
    W7 m ρ c (Proc.devRef .tc main_v33) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 2).trans ((region3 (V6 m ρ) c).trans ?_)
  show RowLayers.biasNormalize (N := 50000) (C := 128) (Ideal.ofBits .f32 0x2B8CBCCC#32) (W6 m ρ c (Proc.devRef .tc main_v31)) (W6 m ρ c (Proc.devRef .tc main_v32)) = _
  rw [at6_main_v31, at6_main_v32, after2]
  rfl

/-- The kernel's run with the result array at `result` of the launch contents of the arguments. -/
theorem run_result : θ_run defs (onTc (τ := τ) (main (F := Ideal))) ⟨m, fun _ => 0, ρ⟩ (fun r => ∀ c : Dev nD,
      r.2.mem ((c.tc : Thread nD τ).loc main_v33) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (after3 m ρ c), (h c).2⟩) (run m ρ)

end Cert.KernelIdeal.Whole

end
-- ==== Proof.RefValue.lean ====
/-
  The reference's result is the same function of the arguments as the kernel's.

  The reference computes, on whole arrays, the same chain: dot_general for each product, the bias vector spread to a
  row and over the rows, a maximum with the zero scalar, and for the last layer the row sums of squares from a zero
  initial value, their square roots clamped below by the scalar ε, and a quotient. Each of these host forms is the
  corresponding layer on the extended reals (no finiteness is needed: nothing is distributed or cancelled, only
  0 + s = s is used); a bias vector spread to a one-row array is that vector reshaped to one row; and the gather,
  product and scatter-add of the sparse aggregation are the same operations, with the same dimension numbers, in both
  programs. So the run's result term is `result` of the arguments.
-/
import proofs.«175998_j7516192768198_1_alg».proof.Proof.Gen.ReferenceIdeal.Run
import proofs.«175998_j7516192768198_1_alg».proof.Proof.KernelValue
import proofs.«175998_j7516192768198_1_alg».proof.Proof.LibRowLayers

set_option maxRecDepth 16384

noncomputable section

namespace Cert.ReferenceIdeal.RefWhole

open Cert.ReferenceIdeal Cert.ReferenceIdeal.Gen Cert.ReferenceIdeal.Value
open Idealize.ShloMosaic Idealize.ShloMosaic.TcCoe Idealize.SL.Sem

/-- The reference's two dot_generals contract the left operand's columns with the right operand's rows. -/
theorem dot1_plain : dot_S50000x300_S300x256_S50000x256_1_0_0_1_n_n = DotDims.plain 50000 300 256 := rfl
theorem dot2_plain : dot_S50000x256_S256x128_S50000x128_1_0_0_1_n_n = DotDims.plain 50000 256 128 := rfl

/-- The reference run's result term is the kernel's function of the argument arrays. -/
theorem result_eq (m : (ℓ : Loc nD τ sig) → Buf (Elt Ideal) ℓ) (c : Dev nD) :
    res_main_v41 m c = Cert.KernelIdeal.Whole.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v41
  rw [RowLayers.hostDot (N := 50000) (K := 300) (C := 256) dot_S50000x300_S300x256_S50000x256_1_0_0_1_n_n dot1_plain]
  rw [RowLayers.hostBiasRelu (N := 50000) (C := 256) bcast_S1x256_S50000x256_0_1 bcast_S_S50000x256]
  rw [RowLayers.hostDot (N := 50000) (K := 256) (C := 128) dot_S50000x256_S256x128_S50000x128_1_0_0_1_n_n dot2_plain]
  rw [RowLayers.hostBiasNormalize (N := 50000) (C := 128) 0x2B8CBCCC#32 bcast_S1x128_S50000x128_0_1
    reducesTo_S50000x128_S50000_d1 (by decide) h_S_ bcast_S50000_S50000x1_0 bcast_S_S50000x1 bcast_S50000x1_S50000x128_0_1]
  rw [← RowLayers.row_eq (C := 256) Cert.KernelIdeal.Gen.shapeCasts_S256_S1x256 bcast_S256_S1x256_1,
    ← RowLayers.row_eq (C := 128) Cert.KernelIdeal.Gen.shapeCasts_S128_S1x128 bcast_S128_S1x128_1]
  rfl

end Cert.ReferenceIdeal.RefWhole

end
-- ==== Proof.lean ====
/-
  The certificate of a two-layer graph network's forward pass.

  The kernel computes normalize (A (relu (A (x · W₁ᵀ) + b₁) · W₂ᵀ) + b₂) — A the sparse aggregation of rows along the
  edges, relu the clamp below at zero, normalize the division of each row by the larger of its Euclidean norm and a
  small constant — with the two products, the bias-and-clamp and the bias-and-normalize each as a row-tiled region and
  the two aggregations as host operations between them; the reference computes the same chain on whole arrays.
  Each region's output array is its layer applied to the whole arrays it found, because every entry of each layer
  depends on one row of its first operand only and the grid's row blocks cover the array. On the extended reals a
  change of float format is the identity, a product accumulated from zero is the sum over the contracted axis, and a
  sum from a zero initial value is the sum: so both programs end with the same function of the eight arguments, and no
  input needs to be finite for that. The three frames are the generated ones (the reference's is its run with the
  result dropped); the idealization rewrote nothing, so it is preserved trivially.
-/
import proofs.«175998_j7516192768198_1_alg».proof.Defs
import proofs.«175998_j7516192768198_1_alg».proof.Proof.Gen.Kernel
import proofs.«175998_j7516192768198_1_alg».proof.Proof.Gen.Kernel.Skeleton
import proofs.«175998_j7516192768198_1_alg».proof.Proof.Gen.Kernel.Launch
import proofs.«175998_j7516192768198_1_alg».proof.Proof.Gen.Kernel.Points
import proofs.«175998_j7516192768198_1_alg».proof.Proof.Gen.Kernel.Frame
import proofs.«175998_j7516192768198_1_alg».proof.Proof.Gen.KernelIdeal
import proofs.«175998_j7516192768198_1_alg».proof.Proof.Gen.KernelIdeal.Skeleton
import proofs.«175998_j7516192768198_1_alg».proof.Proof.Gen.KernelIdeal.Launch
import proofs.«175998_j7516192768198_1_alg».proof.Proof.Gen.KernelIdeal.Points
import proofs.«175998_j7516192768198_1_alg».proof.Proof.Gen.KernelIdeal.Frame
import proofs.«175998_j7516192768198_1_alg».proof.Proof.Gen.ReferenceIdeal
import proofs.«175998_j7516192768198_1_alg».proof.Proof.Gen.ReferenceIdeal.Run
import proofs.«175998_j7516192768198_1_alg».proof.Proof.Gen.Pre_finite_inputs
import proofs.«175998_j7516192768198_1_alg».proof.Proof.KernelValue
import proofs.«175998_j7516192768198_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel :=
  fun m ρ _ => Cert.Kernel.Gen.frame m ρ

/-- The idealized kernel runs and leaves its arguments unchanged. -/
theorem frame_kernelIdeal : Cert.frame_KernelIdeal :=
  fun m ρ _ => Cert.KernelIdeal.Gen.frame m ρ

/-- The idealized reference runs and leaves its arguments unchanged: its run with the result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- From memories agreeing on the arguments both idealized programs end with the result array at the same function of
    the arguments. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefWhole.result_eq m' c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
